-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x76 : Shape := ⟨2, ![128, 76]⟩
abbrev S76 : Shape := ⟨1, ![76]⟩
abbrev S76x64 : Shape := ⟨2, ![76, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x76 : S_.BroadcastsInDim S128x76 (![] : Fin 0 → Fin S128x76.rank)
  reducesTo_S128x76_S_d0_1 : S128x76.ReducesTo [0, 1] S_
  bcast_S_S76 : S_.BroadcastsInDim S76 (![] : Fin 0 → Fin S76.rank)
  reducesTo_S76_S_d0 : S76.ReducesTo [0] S_
  bcast_S_S76x64 : S_.BroadcastsInDim S76x64 (![] : Fin 0 → Fin S76x64.rank)
  reducesTo_S76x64_S_d0_1 : S76x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S76x64 .f32) (main_arg9 : FVec F S76x64 .f32) (main_arg10 : FVec F S64 .f32) (main_v33 : IVec S_ 1) : IVec S_ 1 :=
  let main_v34 : FVec F S76x64 .f32 := Host.absf main_arg8
  let main_cst_12 : FVec F S_ .f32 := constant S_ .f32 0x7F800000#32
  let main_v35 : FVec F S76x64 .f32 := broadcastInDim S76x64 ![] bcast_S_S76x64 main_cst_12
  let main_v36 : IVec S76x64 1 := cmpf .olt main_v34 main_v35
  let main_c_13 : IVec S_ 1 := constantI S_ 1 1#1
  let main_v37 : IVec S_ 1 := (fun x v => Host.reduce IntOp.andi x v reducesTo_S76x64_S_d0_1 h_S_) main_v36 main_c_13
  let main_v38 : IVec S_ 1 := andi main_v33 main_v37
  let main_v39 : FVec F S76x64 .f32 := Host.absf main_arg9
  let main_cst_14 : FVec F S_ .f32 := constant S_ .f32 0x7F800000#32
  let main_v40 : FVec F S76x64 .f32 := broadcastInDim S76x64 ![] bcast_S_S76x64 main_cst_14
  let main_v41 : IVec S76x64 1 := cmpf .olt main_v39 main_v40
  let main_c_15 : IVec S_ 1 := constantI S_ 1 1#1
  let main_v42 : IVec S_ 1 := (fun x v => Host.reduce IntOp.andi x v reducesTo_S76x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x76 .f32) (main_arg6 : FVec F S128x76 .f32) (main_arg7 : FVec F S76 .f32) (main_arg8 : FVec F S76x64 .f32) (main_arg9 : FVec F S76x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x76 .f32 := Host.absf main_arg5
  let main_cst_6 : FVec F S_ .f32 := constant S_ .f32 0x7F800000#32
  let main_v20 : FVec F S128x76 .f32 := broadcastInDim S128x76 ![] bcast_S_S128x76 main_cst_6
  let main_v21 : IVec S128x76 1 := cmpf .olt main_v19 main_v20
  let main_c_7 : IVec S_ 1 := constantI S_ 1 1#1
  let main_v22 : IVec S_ 1 := (fun x v => Host.reduce IntOp.andi x v reducesTo_S128x76_S_d0_1 h_S_) main_v21 main_c_7
  let main_v23 : IVec S_ 1 := andi main_v18 main_v22
  let main_v24 : FVec F S128x76 .f32 := Host.absf main_arg6
  let main_cst_8 : FVec F S_ .f32 := constant S_ .f32 0x7F800000#32
  let main_v25 : FVec F S128x76 .f32 := broadcastInDim S128x76 ![] bcast_S_S128x76 main_cst_8
  let main_v26 : IVec S128x76 1 := cmpf .olt main_v24 main_v25
  let main_c_9 : IVec S_ 1 := constantI S_ 1 1#1
  let main_v27 : IVec S_ 1 := (fun x v => Host.reduce IntOp.andi x v reducesTo_S128x76_S_d0_1 h_S_) main_v26 main_c_9
  let main_v28 : IVec S_ 1 := andi main_v23 main_v27
  let main_v29 : FVec F S76 .f32 := Host.absf main_arg7
  let main_cst_10 : FVec F S_ .f32 := constant S_ .f32 0x7F800000#32
  let main_v30 : FVec F S76 .f32 := broadcastInDim S76 ![] bcast_S_S76 main_cst_10
  let main_v31 : IVec S76 1 := cmpf .olt main_v29 main_v30
  let main_c_11 : IVec S_ 1 := constantI S_ 1 1#1
  let main_v32 : IVec S_ 1 := (fun x v => Host.reduce IntOp.andi x v reducesTo_S76_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x76 .f32) (main_arg6 : FVec F S128x76 .f32) (main_arg7 : FVec F S76 .f32) (main_arg8 : FVec F S76x64 .f32) (main_arg9 : FVec F S76x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x76 : Shape := ⟨2, ![128, 76]⟩
abbrev S76 : Shape := ⟨1, ![76]⟩
abbrev S76x64 : Shape := ⟨2, ![76, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x76 : Shape := ⟨2, ![1, 76]⟩
abbrev S100000x76 : Shape := ⟨2, ![100000, 76]⟩
abbrev S5000x76 : Shape := ⟨2, ![5000, 76]⟩
abbrev S1600000x76 : Shape := ⟨2, ![1600000, 76]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 79
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x76, .f32⟩
  | .hbm, ⟨6, _⟩ => ⟨S128x76, .f32⟩
  | .hbm, ⟨7, _⟩ => ⟨S76, .f32⟩
  | .hbm, ⟨8, _⟩ => ⟨S76x64, .f32⟩
  | .hbm, ⟨9, _⟩ => ⟨S76x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x76, .f32⟩
  | .hbm, ⟨61, _⟩ => ⟨S100000x76, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x76, .f32⟩
  | .hbm, ⟨71, _⟩ => ⟨S_, .f32⟩
  | .hbm, ⟨72, _⟩ => ⟨S100000x76, .f32⟩
  | .hbm, ⟨73, _⟩ => ⟨S1600000x1, .i32⟩
  | .hbm, ⟨74, _⟩ => ⟨S100000x76, .f32⟩
  | .hbm, ⟨75, _⟩ => ⟨S100000x76, .f32⟩
  | .hbm, ⟨76, _⟩ => ⟨S100000x76, .f32⟩
  | .hbm, ⟨77, _⟩ => ⟨S1x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x76, .f32⟩
  | .local _ .vmem, ⟨14, _⟩ => ⟨S128x76, .f32⟩
  | .local _ .vmem, ⟨15, _⟩ => ⟨S1x76, .f32⟩
  | .local _ .vmem, ⟨16, _⟩ => ⟨S5000x76, .f32⟩
  | .local _ .vmem, ⟨17, _⟩ => ⟨S5000x76, .f32⟩
  | .local _ .vmem, ⟨18, _⟩ => ⟨S5000x76, .f32⟩
  | .local _ .vmem, ⟨19, _⟩ => ⟨S5000x76, .f32⟩
  | .local _ .vmem, ⟨20, _⟩ => ⟨S5000x76, .f32⟩
  | .local _ .vmem, ⟨21, _⟩ => ⟨S5000x76, .f32⟩
  | .local _ .vmem, ⟨22, _⟩ => ⟨S76x64, .f32⟩
  | .local _ .vmem, ⟨23, _⟩ => ⟨S76x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x76 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x76 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x76 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x76 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x76 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x76 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S76x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S76x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S76_S1x76 : S76.ShapeCasts S1x76
  inb_S128x76_S128x76_0_0 : ∀ a, (![0, 0] : Fin 2 → Nat) a + S128x76.size a ≤ S128x76.size a
  h_S128x76 : 0 < S128x76.numel
  inb_S1x76_S1x76_0_0 : ∀ a, (![0, 0] : Fin 2 → Nat) a + S1x76.size a ≤ S1x76.size a
  h_S1x76 : 0 < S1x76.numel
  shapeCasts_S1x76_S1x76 : S1x76.ShapeCasts S1x76
  broadcasts_S1x76_S5000x76 : S1x76.Broadcasts S5000x76
  inb_S5000x76_S5000x76_0_0 : ∀ a, (![0, 0] : Fin 2 → Nat) a + S5000x76.size a ≤ S5000x76.size a
  h_S5000x76 : 0 < S5000x76.numel
  bcast_S_S100000x76 : S_.BroadcastsInDim S100000x76 (![] : Fin 0 → Fin S100000x76.rank)
  bcast_S100000x1_S100000x76_0_1 : S100000x1.BroadcastsInDim S100000x76 (![0, 1] : Fin 2 → Fin S100000x76.rank)
  shapeCasts_S64_S1x64 : S64.ShapeCasts S1x64
  shapeCasts_S5000x76_S5000x76 : S5000x76.ShapeCasts S5000x76
  inb_S76x64_S76x64_0_0 : ∀ a, (![0, 0] : Fin 2 → Nat) a + S76x64.size a ≤ S76x64.size a
  h_S76x64 : 0 < S76x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x76_S5000x76_1_0_0_1_n_n_wf : DotDims.WF S5000x128 S128x76 S5000x76 [1] [0] [0] [1] [] []
  gather_S100000x76_S1600000x1_S1600000x76_1_0_n_n_0_1_176_wf : GatherDims.WF S100000x76 S1600000x1 S1600000x76 [1] [0] [] [0] [] 1 ![1, 76]
  scatter_S100000x76_S1600000x1_S1600000x76_1_0_0_1_wf : ScatterDims.WF S100000x76 S1600000x1 S1600000x76 [1] [0] [0] 1
  dot_S5000x76_S76x64_S5000x64_1_0_0_1_n_n_wf : DotDims.WF S5000x76 S76x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x76.size a ≤ S128x76.size a
  hwx1_2 : ∀ i : grid1.Coords, EltTy.bits .f32 = 32 ∨ (Rect.block (s := S128x76) S128x76.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x76.size a ≤ S128x76.size a
  hwx1_3 : ∀ i : grid1.Coords, EltTy.bits .f32 = 32 ∨ (Rect.block (s := S128x76) S128x76.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x76.size a ≤ S1x76.size a
  hwx1_4 : ∀ i : grid1.Coords, EltTy.bits .f32 = 32 ∨ (Rect.block (s := S1x76) S1x76.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x76.size a ≤ S100000x76.size a
  hwx1_5 : ∀ i : grid1.Coords, EltTy.bits .f32 = 32 ∨ (Rect.block (s := S100000x76) S5000x76.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x76.size a ≤ S100000x76.size a
  hwx2_0 : ∀ i : grid2.Coords, EltTy.bits .f32 = 32 ∨ (Rect.block (s := S100000x76) S5000x76.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x76.size a ≤ S100000x76.size a
  hwx2_1 : ∀ i : grid2.Coords, EltTy.bits .f32 = 32 ∨ (Rect.block (s := S100000x76) S5000x76.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S76x64.size a ≤ S76x64.size a
  hwx2_2 : ∀ i : grid2.Coords, EltTy.bits .f32 = 32 ∨ (Rect.block (s := S76x64) S76x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S76x64.size a ≤ S76x64.size a
  hwx2_3 : ∀ i : grid2.Coords, EltTy.bits .f32 = 32 ∨ (Rect.block (s := S76x64) S76x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x76_S5000x76_1_0_0_1_n_n : DotDims S5000x128 S128x76 S5000x76 where
  lhsContracting := [1]
  rhsContracting := [0]
  lhsNonContracting := [0]
  rhsNonContracting := [1]
  lhsBatch := []
  rhsBatch := []
  wf := dot_S5000x128_S128x76_S5000x76_1_0_0_1_n_n_wf
def gather_S100000x76_S1600000x1_S1600000x76_1_0_n_n_0_1_176 : GatherDims S100000x76 S1600000x1 S1600000x76 where
  offsetDims := [1]
  collapsedSliceDims := [0]
  operandBatchingDims := []
  startIndicesBatchingDims := []
  startIndexMap := [0]
  indexVectorDim := 1
  sliceSizes := ![1, 76]
  wf := gather_S100000x76_S1600000x1_S1600000x76_1_0_n_n_0_1_176_wf
def scatter_S100000x76_S1600000x1_S1600000x76_1_0_0_1 : ScatterDims S100000x76 S1600000x1 S1600000x76 where
  updateWindowDims := [1]
  insertedWindowDims := [0]
  scatterDimsToOperandDims := [0]
  indexVectorDim := 1
  wf := scatter_S100000x76_S1600000x1_S1600000x76_1_0_0_1_wf
def dot_S5000x76_S76x64_S5000x64_1_0_0_1_n_n : DotDims S5000x76 S76x64 S5000x64 where
  lhsContracting := [1]
  rhsContracting := [0]
  lhsNonContracting := [0]
  rhsNonContracting := [1]
  lhsBatch := []
  rhsBatch := []
  wf := dot_S5000x76_S76x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x76.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x76.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x76.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x76.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x76.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x76.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S76x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S76x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x76 : Shape := ⟨2, ![128, 76]⟩
abbrev S76 : Shape := ⟨1, ![76]⟩
abbrev S76x64 : Shape := ⟨2, ![76, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x76 : Shape := ⟨2, ![100000, 76]⟩
abbrev S1x76 : Shape := ⟨2, ![1, 76]⟩
abbrev S1600000x76 : Shape := ⟨2, ![1600000, 76]⟩
abbrev S100000x64 : Shape := ⟨2, ![100000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x76, .f32⟩
  | .hbm, ⟨6, _⟩ => ⟨S128x76, .f32⟩
  | .hbm, ⟨7, _⟩ => ⟨S76, .f32⟩
  | .hbm, ⟨8, _⟩ => ⟨S76x64, .f32⟩
  | .hbm, ⟨9, _⟩ => ⟨S76x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x76, .f32⟩
  | .hbm, ⟨68, _⟩ => ⟨S100000x76, .f32⟩
  | .hbm, ⟨69, _⟩ => ⟨S100000x76, .f32⟩
  | .hbm, ⟨70, _⟩ => ⟨S1x76, .f32⟩
  | .hbm, ⟨71, _⟩ => ⟨S100000x76, .f32⟩
  | .hbm, ⟨72, _⟩ => ⟨S100000x76, .f32⟩
  | .hbm, ⟨73, _⟩ => ⟨S_, .f32⟩
  | .hbm, ⟨74, _⟩ => ⟨S100000x76, .f32⟩
  | .hbm, ⟨75, _⟩ => ⟨S100000x76, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x76, .f32⟩
  | .hbm, ⟨85, _⟩ => ⟨S_, .f32⟩
  | .hbm, ⟨86, _⟩ => ⟨S100000x76, .f32⟩
  | .hbm, ⟨87, _⟩ => ⟨S1600000x1, .i32⟩
  | .hbm, ⟨88, _⟩ => ⟨S100000x76, .f32⟩
  | .hbm, ⟨89, _⟩ => ⟨S100000x76, .f32⟩
  | .hbm, ⟨90, _⟩ => ⟨S100000x76, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S76_S1x76_1 : S76.BroadcastsInDim S1x76 (![1] : Fin 1 → Fin S1x76.rank)
  bcast_S1x76_S100000x76_0_1 : S1x76.BroadcastsInDim S100000x76 (![0, 1] : Fin 2 → Fin S100000x76.rank)
  bcast_S_S100000x76 : S_.BroadcastsInDim S100000x76 (![] : Fin 0 → Fin S100000x76.rank)
  bcast_S100000x1_S100000x76_0_1 : S100000x1.BroadcastsInDim S100000x76 (![0, 1] : Fin 2 → Fin S100000x76.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x76_S100000x76_1_0_0_1_n_n_wf : DotDims.WF S100000x128 S128x76 S100000x76 [1] [0] [0] [1] [] []
  gather_S100000x76_S1600000x1_S1600000x76_1_0_n_n_0_1_176_wf : GatherDims.WF S100000x76 S1600000x1 S1600000x76 [1] [0] [] [0] [] 1 ![1, 76]
  scatter_S100000x76_S1600000x1_S1600000x76_1_0_0_1_wf : ScatterDims.WF S100000x76 S1600000x1 S1600000x76 [1] [0] [0] 1
  dot_S100000x76_S76x64_S100000x64_1_0_0_1_n_n_wf : DotDims.WF S100000x76 S76x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x76_S100000x76_1_0_0_1_n_n : DotDims S100000x128 S128x76 S100000x76 where
  lhsContracting := [1]
  rhsContracting := [0]
  lhsNonContracting := [0]
  rhsNonContracting := [1]
  lhsBatch := []
  rhsBatch := []
  wf := dot_S100000x128_S128x76_S100000x76_1_0_0_1_n_n_wf
def gather_S100000x76_S1600000x1_S1600000x76_1_0_n_n_0_1_176 : GatherDims S100000x76 S1600000x1 S1600000x76 where
  offsetDims := [1]
  collapsedSliceDims := [0]
  operandBatchingDims := []
  startIndicesBatchingDims := []
  startIndexMap := [0]
  indexVectorDim := 1
  sliceSizes := ![1, 76]
  wf := gather_S100000x76_S1600000x1_S1600000x76_1_0_n_n_0_1_176_wf
def scatter_S100000x76_S1600000x1_S1600000x76_1_0_0_1 : ScatterDims S100000x76 S1600000x1 S1600000x76 where
  updateWindowDims := [1]
  insertedWindowDims := [0]
  scatterDimsToOperandDims := [0]
  indexVectorDim := 1
  wf := scatter_S100000x76_S1600000x1_S1600000x76_1_0_0_1_wf
def dot_S100000x76_S76x64_S100000x64_1_0_0_1_n_n : DotDims S100000x76 S76x64 S100000x64 where
  lhsContracting := [1]
  rhsContracting := [0]
  lhsNonContracting := [0]
  rhsNonContracting := [1]
  lhsBatch := []
  rhsBatch := []
  wf := dot_S100000x76_S76x64_S100000x64_1_0_0_1_n_n_wf

class Facts : Prop extends Facts₀ where

variable [Facts]
-- ==== Proof.KernelRun.lean ====
/-
  The idealized kernel program's run with its result NAMED.

  The program is three row-tiled regions among three stretches of host operations. Its run from any memory ends
  with the twelve buffers of interest at the contents of the last segment boundary: the eleven argument arrays as
  launched, and the result array at what the third region's write-backs leave (`Gen.W6` at the result's
  reference). The run is the library's run of a list of host stretches and regions; the only thing read here that
  the frame statement does not read is the result's buffer in the last boundary's contents.
-/
import proofs.«162143_j61899068670163_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and every argument array as launched. -/
theorem run_named : θ_run defs (onTc (τ := τ) (main (F := F))) ⟨m, fun _ => 0, ρ⟩ (fun r => ∀ c : Dev nD,
      r.2.mem ((c.tc : Thread nD τ).loc main_v54) = W6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v54 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.SageLayer.lean ====
/-
  The mathematics of one GraphSAGE layer, stated once over the extended reals and over no program.

  A layer takes a matrix `a` of aggregated neighbour features and a matrix `h` of node features (one row per
  node), two weight matrices and a bias row, and returns, entry by entry,

      lin a h wl wr b [p, q] = (Σₖ a[p,k]·wl[k,q] + Σₖ h[p,k]·wr[k,q]) + b[q],

  the two products added first and the bias last, as both programs add them. `relu` is the maximum with the float
  zero, kept as the word both programs print so that it is never evaluated.

  Row `p` of a layer's result depends on row `p` of `a` and of `h` only: `lin_rows` says that the layer applied
  to a block of rows is the layer's rows at the block's position. That is what lets a grid of row blocks compute
  the whole result. Nothing here needs a finite entry: no sum is rearranged.
-/
import Idealize.ShloMosaic.PureOps.Ideal
import Idealize.ShloMosaic.Lib.ValueIdx

noncomputable section

namespace Cert.SageLayer

open Idealize.ShloMosaic Idealize.ShloMosaic.ValueIdx
open scoped BigOperators

/-- A matrix of extended reals with `r` rows and `c` columns, indexed as the programs index their arrays. -/
abbrev Mat (r c : ℕ) := (⟨2, ![r, c]⟩ : Shape).Idx → EReal
/-- A vector of extended reals of length `n`. -/
abbrev Row (n : ℕ) := (⟨1, ![n]⟩ : Shape).Idx → EReal

/-- One layer before its nonlinearity: `(a·wl + h·wr) + b`, entry by entry. -/
def lin {R K D : ℕ} (a h : Mat R K) (wl wr : Mat K D) (b : Row D) : Mat R D :=
  fun i => ((∑ k : Fin K, a (ix2 (i 0) k) * wl (ix2 k (i 1))) + ∑ k : Fin K, h (ix2 (i 0) k) * wr (ix2 k (i 1)))
    + b (ix1 (i 1))

/-- The maximum with the float zero, entry by entry. -/
def relu {R D : ℕ} (z : Mat R D) : Mat R D := fun i => max (z i) (Ideal.ofBits .f32 0x00000000#32)

/-- A bias stored as a one-row matrix, read as a row. -/
def rowOf {D : ℕ} (b : Mat 1 D) : Row D := fun q => b (ix2 (0 : Fin 1) (q 0))

/-- ROW LOCALITY: if row `y 0` of the small operands `A`, `H` is row `i 0` of the large ones and the two indices
    name the same column, the layer of the small operands at `y` is the layer of the large ones at `i`. -/
theorem lin_rows {R B K D : ℕ} (a h : Mat R K) (A H : Mat B K) (wl wr : Mat K D) (b : Row D)
    (y : (⟨2, ![B, D]⟩ : Shape).Idx) (i : (⟨2, ![R, D]⟩ : Shape).Idx) (hc : y 1 = i 1)
    (hA : ∀ k : Fin K, A (ix2 (y 0) k) = a (ix2 (i 0) k)) (hH : ∀ k : Fin K, H (ix2 (y 0) k) = h (ix2 (i 0) k)) :
    lin A H wl wr b y = lin a h wl wr b i := by
  unfold lin
  rw [hc]
  simp only [hA, hH]

/-- The same for a layer followed by its nonlinearity. -/
theorem relu_lin_rows {R B K D : ℕ} (a h : Mat R K) (A H : Mat B K) (wl wr : Mat K D) (b : Row D)
    (y : (⟨2, ![B, D]⟩ : Shape).Idx) (i : (⟨2, ![R, D]⟩ : Shape).Idx) (hc : y 1 = i 1)
    (hA : ∀ k : Fin K, A (ix2 (y 0) k) = a (ix2 (i 0) k)) (hH : ∀ k : Fin K, H (ix2 (y 0) k) = h (ix2 (i 0) k)) :
    relu (lin A H wl wr b) y = relu (lin a h wl wr b) i := by
  unfold relu
  rw [lin_rows a h A H wl wr b y i hc hA hH]

/-- BLOCK FORM, every operand pointwise: a block of rows `A`, `H` sitting at rows `i 0` of `a`, `h`, with weights and
    bias that are entry by entry the whole ones, gives at `y` the whole layer at `i`. -/
theorem lin_block {R B K D : ℕ} (a h : Mat R K) (wl wr : Mat K D) (b : Mat 1 D)
    (A H : Mat B K) (WL WR : Mat K D) (Bb : Mat 1 D)
    (y : (⟨2, ![B, D]⟩ : Shape).Idx) (i : (⟨2, ![R, D]⟩ : Shape).Idx) (hc : y 1 = i 1)
    (hA : ∀ k : Fin K, A (ix2 (y 0) k) = a (ix2 (i 0) k)) (hH : ∀ k : Fin K, H (ix2 (y 0) k) = h (ix2 (i 0) k))
    (hWl : ∀ (k : Fin K) (q : Fin D), WL (ix2 k q) = wl (ix2 k q))
    (hWr : ∀ (k : Fin K) (q : Fin D), WR (ix2 k q) = wr (ix2 k q))
    (hB : ∀ q : Fin D, Bb (ix2 (0 : Fin 1) q) = b (ix2 (0 : Fin 1) q)) :
    lin A H WL WR (rowOf Bb) y = lin a h wl wr (rowOf b) i := by
  unfold lin rowOf
  rw [hc]
  exact congrArg₂ (· + ·)
    (congrArg₂ (· + ·)
      (Finset.sum_congr rfl fun k _ => congrArg₂ (· * ·) (hA k) (hWl k (i 1)))
      (Finset.sum_congr rfl fun k _ => congrArg₂ (· * ·) (hH k) (hWr k (i 1))))
    (hB (i 1))

/-- The same for a layer followed by its nonlinearity. -/
theorem relu_lin_block {R B K D : ℕ} (a h : Mat R K) (wl wr : Mat K D) (b : Mat 1 D)
    (A H : Mat B K) (WL WR : Mat K D) (Bb : Mat 1 D)
    (y : (⟨2, ![B, D]⟩ : Shape).Idx) (i : (⟨2, ![R, D]⟩ : Shape).Idx) (hc : y 1 = i 1)
    (hA : ∀ k : Fin K, A (ix2 (y 0) k) = a (ix2 (i 0) k)) (hH : ∀ k : Fin K, H (ix2 (y 0) k) = h (ix2 (i 0) k))
    (hWl : ∀ (k : Fin K) (q : Fin D), WL (ix2 k q) = wl (ix2 k q))
    (hWr : ∀ (k : Fin K) (q : Fin D), WR (ix2 k q) = wr (ix2 k q))
    (hB : ∀ q : Fin D, Bb (ix2 (0 : Fin 1) q) = b (ix2 (0 : Fin 1) q)) :
    relu (lin A H WL WR (rowOf Bb)) y = relu (lin a h wl wr (rowOf b)) i := by
  unfold relu
  rw [lin_block a h wl wr b A H WL WR Bb y i hc hA hH hWl hWr hB]

end Cert.SageLayer

end
-- ==== Proof.Body.lean ====
/-
  What each layer's kernel body stores, entry by entry, on the extended reals.

  A body loads a block `x0` of aggregated rows, the same block `x1` of node rows, both weight matrices and the
  one-row bias, rounds the four matrices to a narrower float format (the identity on the extended reals), forms
  the two matrix products into zero accumulators, adds them, adds the bias row to every row and — in the first
  two layers — takes the maximum with zero. At entry (p, q) that is

      (Σₖ x0[p,k]·x2[k,q] + Σₖ x1[p,k]·x3[k,q]) + x4[0,q]      (under `max · 0` in layers one and two),

  the layer of `SageLayer` applied to the block. The three bodies differ in their extents only
  (128 → 128, 128 → 76, 76 → 64) and in the last one having no maximum.
-/
import proofs.«162143_j61899068670163_1_alg».proof.Proof.Gen.KernelIdeal.Skeleton
import proofs.«162143_j61899068670163_1_alg».proof.Proof.LibPlainDot
import proofs.«162143_j61899068670163_1_alg».proof.Proof.SageLayer
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.SageLayer

/-- The first layer's stored block is `relu (lin …)` of the loaded blocks. -/
theorem pay0_eq (x0 x1 : Vec Ideal S5000x128 .f32) (x2 x3 : Vec Ideal S128x128 .f32) (x4 : Vec Ideal S1x128 .f32) :
    k0_pay1 (F := Ideal) x0 x1 x2 x3 x4 = relu (lin x0 x1 x2 x3 (rowOf x4)) := by
  funext j
  obtain ⟨p, q, rfl⟩ : ∃ (p : Fin 5000) (q : Fin 128), j = ix2 p q := ⟨j 0, j 1, eq_ix2 j⟩
  unfold k0_pay1 relu lin rowOf
  simp only [maximumf_apply, addf_apply, broadcast_apply, shapeCast_self]
  have hA := PlainDot.matmul_zero_apply 5000 128 128 none
    (truncf .bf16 x0 bitsLt_bf16_f32) (truncf .bf16 x2 bitsLt_bf16_f32) (ix2 p q)
  have hB := PlainDot.matmul_zero_apply 5000 128 128 none
    (truncf .bf16 x1 bitsLt_bf16_f32) (truncf .bf16 x3 bitsLt_bf16_f32) (ix2 p q)
  have hC := broadcastTo_1b_ab_apply x4 broadcasts_S1x128_S5000x128 p q
  simp only [truncf_apply] at hA hB
  exact congrArg₂ max (congrArg₂ (· + ·) (congrArg₂ (· + ·) hA hB) hC) rfl

/-- The second layer's stored block is `relu (lin …)` of the loaded blocks. -/
theorem pay1_eq (x0 x1 : Vec Ideal S5000x128 .f32) (x2 x3 : Vec Ideal S128x76 .f32) (x4 : Vec Ideal S1x76 .f32) :
    k1_pay1 (F := Ideal) x0 x1 x2 x3 x4 = relu (lin x0 x1 x2 x3 (rowOf x4)) := by
  funext j
  obtain ⟨p, q, rfl⟩ : ∃ (p : Fin 5000) (q : Fin 76), j = ix2 p q := ⟨j 0, j 1, eq_ix2 j⟩
  unfold k1_pay1 relu lin rowOf
  simp only [maximumf_apply, addf_apply, broadcast_apply, shapeCast_self]
  have hA := PlainDot.matmul_zero_apply 5000 128 76 none
    (truncf .bf16 x0 bitsLt_bf16_f32) (truncf .bf16 x2 bitsLt_bf16_f32) (ix2 p q)
  have hB := PlainDot.matmul_zero_apply 5000 128 76 none
    (truncf .bf16 x1 bitsLt_bf16_f32) (truncf .bf16 x3 bitsLt_bf16_f32) (ix2 p q)
  have hC := broadcastTo_1b_ab_apply x4 broadcasts_S1x76_S5000x76 p q
  simp only [truncf_apply] at hA hB
  exact congrArg₂ max (congrArg₂ (· + ·) (congrArg₂ (· + ·) hA hB) hC) rfl

/-- The third layer's stored block is `lin …` of the loaded blocks: no nonlinearity. -/
theorem pay2_eq (x0 x1 : Vec Ideal S5000x76 .f32) (x2 x3 : Vec Ideal S76x64 .f32) (x4 : Vec Ideal S1x64 .f32) :
    k2_pay1 (F := Ideal) x0 x1 x2 x3 x4 = lin x0 x1 x2 x3 (rowOf x4) := by
  funext j
  obtain ⟨p, q, rfl⟩ : ∃ (p : Fin 5000) (q : Fin 64), j = ix2 p q := ⟨j 0, j 1, eq_ix2 j⟩
  unfold k2_pay1 lin rowOf
  simp only [addf_apply, shapeCast_self]
  have hA := PlainDot.matmul_zero_apply 5000 76 64 none
    (truncf .bf16 x0 bitsLt_bf16_f32) (truncf .bf16 x2 bitsLt_bf16_f32) (ix2 p q)
  have hB := PlainDot.matmul_zero_apply 5000 76 64 none
    (truncf .bf16 x1 bitsLt_bf16_f32) (truncf .bf16 x3 bitsLt_bf16_f32) (ix2 p q)
  have hC := broadcastTo_1b_ab_apply x4 broadcasts_S1x64_S5000x64 p q
  simp only [truncf_apply] at hA hB
  exact congrArg₂ (· + ·) (congrArg₂ (· + ·) hA hB) hC

end Cert.KernelIdeal.Body

end
-- ==== Proof.Region0.lean ====
/-
  The first layer's region, read as one function of the arrays it finds.

  The grid has twenty points; point `t` loads rows 5000·t … 5000·t + 4999 of the aggregated matrix and of the node
  matrix, both whole weight matrices and the bias row, and writes back the same rows of the result. Since a row of
  the layer depends on the same row of its two row-indexed operands only (`SageLayer.relu_lin_block`), what point
  `t` writes back is rows 5000·t … of the layer of the WHOLE arrays; the twenty blocks tile the 100000 rows (row
  `r` is in block `r / 5000`), so after the region the result array holds the layer of the whole arrays.
-/
import proofs.«162143_j61899068670163_1_alg».proof.Proof.Gen.KernelIdeal.Frame
import proofs.«162143_j61899068670163_1_alg».proof.Proof.Body
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen Cert.SageLayer Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x128.Idx → EReal :=
  relu (lin (V c main_v24) (V c main_arg0) (V c main_arg2) (V c main_arg3) (rowOf (V c main_v25)))

/-- The printed index maps over the grid: the three row-tiled windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [pay0_eq]
  obtain ⟨e00, e01, e10, e11, e20, e21, e30, e31, e40, e41, e50, e51⟩ := idx_facts t
  funext y
  show relu (lin (iblk0 V c 0 t) (iblk0 V c 1 t) (iblk0 V c 2 t) (iblk0 V c 3 t) (rowOf (iblk0 V c 4 t))) y
    = relu (lin (V c main_v24) (V c main_arg0) (V c main_arg2) (V c main_arg3) (rowOf (V c main_v25)))
        (((cfg0.win 5).blk t).view.emb y)
  have hy0 : (y 0).val < 5000 := (y 0).isLt
  have hy1 : (y 1).val < 128 := (y 1).isLt
  refine relu_lin_block (V c main_v24) (V c main_arg0) (V c main_arg2) (V c main_arg3) (V c main_v25)
    (iblk0 V c 0 t) (iblk0 V c 1 t) (iblk0 V c 2 t) (iblk0 V c 3 t) (iblk0 V c 4 t) y (((cfg0.win 5).blk t).view.emb y)
    ?_ ?_ ?_ ?_ ?_ ?_
  · exact Fin.ext (by show (y 1).val = win0_5.index t (1 : Fin 2) * 128 + 1 * (y 1).val; omega)
  · intro k
    have hk : k.val < 128 := k.isLt
    show V c main_v24 (((cfg0.win 0).blk t).view.emb (ix2 (y 0) k)) = _
    refine congrArg _ (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * k.val = k.val; omega
  · intro k
    have hk : k.val < 128 := k.isLt
    show V c main_arg0 (((cfg0.win 1).blk t).view.emb (ix2 (y 0) k)) = _
    refine congrArg _ (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 128 + 1 * k.val = k.val; omega
  · intro k q
    show V c main_arg2 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k q
    show V c main_arg3 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro q
    show V c main_v25 (((cfg0.win 4).blk t).view.emb (ix2 (0 : Fin 1) q)) = _
    refine congrArg _ (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 128 + 1 * q.val = q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty blocks tile the rows: row `r` is in the block of point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e51]; omega

/-- After the region the result array holds the layer of the whole arrays the region found. -/
theorem final (c : Dev nD) : (dat0 V c).arrAt 5 cfg0.N = G V c :=
  (dat0 V c).arrAt_eq_of_cover 5 (G V c) (fun t _ => flushed_eq V c t) cover

end Cert.KernelIdeal.Layer0

end
-- ==== Proof.Region1.lean ====
/-
  The second layer's region, read as one function of the arrays it finds.

  The grid has twenty points; point `t` loads rows 5000·t … 5000·t + 4999 of the aggregated matrix and of the node
  matrix, both whole weight matrices and the bias row, and writes back the same rows of the result. Since a row of
  the layer depends on the same row of its two row-indexed operands only (`SageLayer.relu_lin_block`), what point
  `t` writes back is rows 5000·t … of the layer of the WHOLE arrays; the twenty blocks tile the 100000 rows (row
  `r` is in block `r / 5000`), so after the region the result array holds the layer of the whole arrays.
-/
import proofs.«162143_j61899068670163_1_alg».proof.Proof.Gen.KernelIdeal.Frame
import proofs.«162143_j61899068670163_1_alg».proof.Proof.Body
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.SageLayer Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x76.Idx → EReal :=
  relu (lin (V c main_v38) (V c main_v26) (V c main_arg5) (V c main_arg6) (rowOf (V c main_v39)))

/-- The printed index maps over the grid: the three row-tiled windows sit at block (t, 0), the others at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x76) hz, View.ld_unit_zero (S := S1x76) hz]
  rw [pay1_eq]
  obtain ⟨e00, e01, e10, e11, e20, e21, e30, e31, e40, e41, e50, e51⟩ := idx_facts t
  funext y
  show relu (lin (iblk1 V c 0 t) (iblk1 V c 1 t) (iblk1 V c 2 t) (iblk1 V c 3 t) (rowOf (iblk1 V c 4 t))) y
    = relu (lin (V c main_v38) (V c main_v26) (V c main_arg5) (V c main_arg6) (rowOf (V c main_v39)))
        (((cfg1.win 5).blk t).view.emb y)
  have hy0 : (y 0).val < 5000 := (y 0).isLt
  have hy1 : (y 1).val < 76 := (y 1).isLt
  refine relu_lin_block (V c main_v38) (V c main_v26) (V c main_arg5) (V c main_arg6) (V c main_v39)
    (iblk1 V c 0 t) (iblk1 V c 1 t) (iblk1 V c 2 t) (iblk1 V c 3 t) (iblk1 V c 4 t) y (((cfg1.win 5).blk t).view.emb y)
    ?_ ?_ ?_ ?_ ?_ ?_
  · exact Fin.ext (by show (y 1).val = win1_5.index t (1 : Fin 2) * 76 + 1 * (y 1).val; omega)
  · intro k
    have hk : k.val < 128 := k.isLt
    show V c main_v38 (((cfg1.win 0).blk t).view.emb (ix2 (y 0) k)) = _
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · intro k
    have hk : k.val < 128 := k.isLt
    show V c main_v26 (((cfg1.win 1).blk t).view.emb (ix2 (y 0) k)) = _
    refine congrArg _ (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · intro k q
    show V c main_arg5 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 76 + 1 * q.val = q.val; omega
  · intro k q
    show V c main_arg6 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 76 + 1 * q.val = q.val; omega
  · intro q
    show V c main_v39 (((cfg1.win 4).blk t).view.emb (ix2 (0 : Fin 1) q)) = _
    refine congrArg _ (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 76 + 1 * q.val = q.val; omega

/-- An index of the result array is in point `t`'s block iff each coordinate is in the block's range on its axis. -/
theorem mem_blk (t : Fin cfg1.N) (i : S100000x76.Idx) :
    i ∈ ((cfg1.win 5).blk t).view.set ↔ ∀ a : Fin 2, win1_5.index t a * S5000x76.size a ≤ (i a).val ∧ (i a).val < win1_5.index t a * S5000x76.size a + S5000x76.size a := by
  show i ∈ ((View.whole main_v40).slice (win1_5.rect t)).set ↔ _
  rw [View.set_slice_whole, Rect.mem_set_unit]
  exact Iff.rfl

/-- The twenty blocks tile the rows: row `r` is in the block of point `r / 5000`. -/
theorem cover (i : S100000x76.Idx) :
    ∃ t : Fin cfg1.N, (cfg1.win 5).flush t = true ∧ i ∈ ((cfg1.win 5).blk t).view.set := by
  have hi0 : (i 0).val < 100000 := (i 0).isLt
  have hi1 : (i 1).val < 76 := (i 1).isLt
  have hN : grid1.N = 20 := N_1
  have ht : (i 0).val / 5000 < cfg1.N := by show (i 0).val / 5000 < grid1.N; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 76 ≤ (i 1).val ∧ (i 1).val < win1_5.index ⟨(i 0).val / 5000, ht⟩ (1 : Fin 2) * 76 + 76
    rw [e51]; omega

/-- After the region the result array holds the layer of the whole arrays the region found. -/
theorem final (c : Dev nD) : (dat1 V c).arrAt 5 cfg1.N = G V c :=
  (dat1 V c).arrAt_eq_of_cover 5 (G V c) (fun t _ => flushed_eq V c t) cover

end Cert.KernelIdeal.Layer1

end
-- ==== Proof.Region2.lean ====
/-
  The third layer's region, read as one function of the arrays it finds.

  The grid has twenty points; point `t` loads rows 5000·t … 5000·t + 4999 of the aggregated matrix and of the node
  matrix, both whole weight matrices and the bias row, and writes back the same rows of the result. Since a row of
  the layer depends on the same row of its two row-indexed operands only (`SageLayer.lin_block`), what point
  `t` writes back is rows 5000·t … of the layer of the WHOLE arrays; the twenty blocks tile the 100000 rows (row
  `r` is in block `r / 5000`), so after the region the result array holds the layer of the whole arrays.
-/
import proofs.«162143_j61899068670163_1_alg».proof.Proof.Gen.KernelIdeal.Frame
import proofs.«162143_j61899068670163_1_alg».proof.Proof.Body
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.SageLayer Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays as the region finds them. -/
def G (c : Dev nD) : S100000x64.Idx → EReal :=
  (lin (V c main_v52) (V c main_v40) (V c main_arg8) (V c main_arg9) (rowOf (V c main_v53)))

/-- The printed index maps over the grid: the three row-tiled windows sit at block (t, 0), the others at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x76) hz, View.ld_unit_zero (S := S76x64) hz, View.ld_unit_zero (S := S1x64) hz]
  rw [pay2_eq]
  obtain ⟨e00, e01, e10, e11, e20, e21, e30, e31, e40, e41, e50, e51⟩ := idx_facts t
  funext y
  show (lin (iblk2 V c 0 t) (iblk2 V c 1 t) (iblk2 V c 2 t) (iblk2 V c 3 t) (rowOf (iblk2 V c 4 t))) y
    = (lin (V c main_v52) (V c main_v40) (V c main_arg8) (V c main_arg9) (rowOf (V c main_v53)))
        (((cfg2.win 5).blk t).view.emb y)
  have hy0 : (y 0).val < 5000 := (y 0).isLt
  have hy1 : (y 1).val < 64 := (y 1).isLt
  refine lin_block (V c main_v52) (V c main_v40) (V c main_arg8) (V c main_arg9) (V c main_v53)
    (iblk2 V c 0 t) (iblk2 V c 1 t) (iblk2 V c 2 t) (iblk2 V c 3 t) (iblk2 V c 4 t) y (((cfg2.win 5).blk t).view.emb y)
    ?_ ?_ ?_ ?_ ?_ ?_
  · exact Fin.ext (by show (y 1).val = win2_5.index t (1 : Fin 2) * 64 + 1 * (y 1).val; omega)
  · intro k
    have hk : k.val < 76 := k.isLt
    show V c main_v52 (((cfg2.win 0).blk t).view.emb (ix2 (y 0) k)) = _
    refine congrArg _ (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 76 + 1 * k.val = k.val; omega
  · intro k
    have hk : k.val < 76 := k.isLt
    show V c main_v40 (((cfg2.win 1).blk t).view.emb (ix2 (y 0) k)) = _
    refine congrArg _ (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 76 + 1 * k.val = k.val; omega
  · intro k q
    show V c main_arg8 (((cfg2.win 2).blk t).view.emb (ix2 k q)) = _
    refine congrArg _ (funext fun a => Fin.ext ?_)
    match a with
    | ⟨0, _⟩ => show win2_2.index t (0 : Fin 2) * 76 + 1 * k.val = k.val; omega
    | ⟨1, _⟩ => show win2_2.index t (1 : Fin 2) * 64 + 1 * q.val = q.val; omega
  · intro k q
    show V c main_arg9 (((cfg2.win 3).blk t).view.emb (ix2 k q)) = _
    refine congrArg _ (funext fun a => Fin.ext ?_)
    match a with
    | ⟨0, _⟩ => show win2_3.index t (0 : Fin 2) * 76 + 1 * k.val = k.val; omega
    | ⟨1, _⟩ => show win2_3.index t (1 : Fin 2) * 64 + 1 * q.val = q.val; omega
  · intro q
    show V c main_v53 (((cfg2.win 4).blk t).view.emb (ix2 (0 : Fin 1) q)) = _
    refine congrArg _ (funext fun a => Fin.ext ?_)
    match a with
    | ⟨0, _⟩ => show win2_4.index t (0 : Fin 2) * 1 + 1 * (0 : Fin 1).val = (0 : Fin 1).val; omega
    | ⟨1, _⟩ => show win2_4.index t (1 : Fin 2) * 64 + 1 * q.val = q.val; omega

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v54).slice (win2_5.rect t)).set ↔ _
  rw [View.set_slice_whole, Rect.mem_set_unit]
  exact Iff.rfl

/-- The twenty blocks tile the rows: row `r` is in the block of point `r / 5000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 20 := N_2
  have ht : (i 0).val / 5000 < cfg2.N := by show (i 0).val / 5000 < grid2.N; omega
  obtain ⟨-, -, -, -, -, -, -, -, -, -, e50, e51⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e51]; omega

/-- After the region the result array holds the layer of the whole arrays the region found. -/
theorem final (c : Dev nD) : (dat2 V c).arrAt 5 cfg2.N = G V c :=
  (dat2 V c).arrAt_eq_of_cover 5 (G V c) (fun t _ => flushed_eq V c t) cover

end Cert.KernelIdeal.Layer2

end
-- ==== Proof.Aggregate.lean ====
/-
  The neighbourhood mean both programs compute on the host, named once and never opened.

  From the edge list `e` (two rows of node numbers) both programs take the source row `src e` and the target row
  `dst e`, count each node's incoming edges by adding ones into a zero vector at the targets, clamp the count
  below by one and invert it (`invDeg e`, kept as a column). A layer's aggregated matrix is then: gather the rows
  of the feature matrix at the sources (a negative source number wrapped by the row count first), add each gathered
  row into a zero matrix at its target, and scale row `r` by the inverted count of `r` (`mean128` for 128
  features, `mean76` for 76). The two programs print these operations with the same words; this certificate
  only ever needs that the two spellings are one term, so the gather and the accumulating scatter stay closed.
-/
import proofs.«162143_j61899068670163_1_alg».proof.Proof.Gen.KernelIdeal
import proofs.«162143_j61899068670163_1_alg».proof.Proof.Gen.ReferenceIdeal
import Idealize.ShloMosaic.PureOps.Ideal

noncomputable section

namespace Cert.Aggregate

open Idealize.ShloMosaic Cert.KernelIdeal Cert.KernelIdeal.Facts₀

/-- An array of 32-bit integer words of shape `s`. -/
abbrev Words (s : Shape) := (⟨s, .i32⟩ : BufTy).Contents (Elt Ideal)
/-- An array of extended reals of shape `s`. -/
abbrev Reals (s : Shape) := (⟨s, .f32⟩ : BufTy).Contents (Elt Ideal)

/-- The edge list's first row: each edge's source node. -/
def src (e : Words S2x1600000) : Words S1600000 :=
  shapeCast _ (extractStridedSlice S1x1600000 ![0, 0] e slices_S2x1600000_S1x1600000_0_0) shapeCasts_S1x1600000_S1600000

/-- The edge list's second row: each edge's target node. -/
def dst (e : Words S2x1600000) : Words S1600000 :=
  shapeCast _ (extractStridedSlice S1x1600000 ![1, 0] e slices_S2x1600000_S1x1600000_1_0) shapeCasts_S1x1600000_S1600000

/-- One over the number of edges into each node, the number clamped below by one; a column. -/
def invDeg (e : Words S2x1600000) : Reals S100000x1 :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 (dst e))
          (broadcastInDim S1600000 ![] bcast_S_S1600000 (constant (F := Ideal) S_ .f32 0x3F800000#32)))
        (broadcastInDim S100000 ![] bcast_S_S100000 (constant (F := Ideal) S_ .f32 0x3F800000#32))))

/-- A negative node number wrapped by the number of nodes, as an array indexing wraps it. -/
def wrap (s : Words S1600000) : Words S1600000 :=
  select (cmpi .slt s (broadcastInDim S1600000 ![] bcast_S_S1600000 (constantI S_ 32 0#32)))
    (addi s (broadcastInDim S1600000 ![] bcast_S_S1600000 (constantI S_ 32 100000#32))) s

/-- The mean over incoming edges of 128-feature rows: gather at the sources, add at the targets, scale by `w`. -/
def mean128 (s d : Words S1600000) (w : Reals S100000x1) (h : Reals S100000x128) : Reals S100000x128 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0 (wrap s))))
    (broadcastInDim S100000x128 ![0, 1] bcast_S100000x1_S100000x128_0_1 w)

/-- The mean over incoming edges of 76-feature rows. -/
def mean76 (s d : Words S1600000) (w : Reals S100000x1) (h : Reals S100000x76) : Reals S100000x76 :=
  mulf
    (Host.scatterAdd (F := Ideal) scatter_S100000x76_S1600000x1_S1600000x76_1_0_0_1
      (broadcastInDim S100000x76 ![] bcast_S_S100000x76 (constant (F := Ideal) S_ .f32 0x00000000#32))
      (broadcastInDim S1600000x1 ![0] bcast_S1600000_S1600000x1_0 d)
      (Host.gather gather_S100000x76_S1600000x1_S1600000x76_1_0_n_n_0_1_176 h
        (broadcastInDim S1600000x1 ![0] bcast_S1600000_S1600000x1_0 (wrap s))))
    (broadcastInDim S100000x76 ![0, 1] bcast_S100000x1_S100000x76_0_1 w)

/-! The reference program prints the same dimension records under its own names. -/

theorem scatterCount_eq : Cert.ReferenceIdeal.scatter_S100000_S1600000x1_S1600000_n_0_0_1 = scatter_S100000_S1600000x1_S1600000_n_0_0_1 := rfl
theorem gather128_eq : Cert.ReferenceIdeal.gather_S100000x128_S1600000x1_S1600000x128_1_0_n_n_0_1_1128 = gather_S100000x128_S1600000x1_S1600000x128_1_0_n_n_0_1_1128 := rfl
theorem scatter128_eq : Cert.ReferenceIdeal.scatter_S100000x128_S1600000x1_S1600000x128_1_0_0_1 = scatter_S100000x128_S1600000x1_S1600000x128_1_0_0_1 := rfl
theorem gather76_eq : Cert.ReferenceIdeal.gather_S100000x76_S1600000x1_S1600000x76_1_0_n_n_0_1_176 = gather_S100000x76_S1600000x1_S1600000x76_1_0_n_n_0_1_176 := rfl
theorem scatter76_eq : Cert.ReferenceIdeal.scatter_S100000x76_S1600000x1_S1600000x76_1_0_0_1 = scatter_S100000x76_S1600000x1_S1600000x76_1_0_0_1 := rfl

end Cert.Aggregate

end
-- ==== Proof.Network.lean ====
/-
  The three-layer network both programs compute, as one function of the eleven argument arrays.

  With `s`, `d` the edge list's source and target rows and `w` the inverted clamped in-degree column
  (`Aggregate`), and `lin`, `relu` of `SageLayer`:

      h1  = relu (lin (mean128 s d w x)  x  Wl1 Wr1 b1)        100000 × 128
      h2  = relu (lin (mean128 s d w h1) h1 Wl2 Wr2 b2)        100000 × 76
      out =       lin (mean76  s d w h2) h2 Wl3 Wr3 b3         100000 × 64

  The kernel program keeps each bias as a one-row matrix made from the bias vector by a reshape;
  `rowOf_shapeCast` reads that row back as the vector.
-/
import proofs.«162143_j61899068670163_1_alg».proof.Proof.SageLayer
import proofs.«162143_j61899068670163_1_alg».proof.Proof.Aggregate
import Idealize.ShloMosaic.Lib.ValueLayout

noncomputable section

namespace Cert.Network

open Idealize.ShloMosaic Idealize.ShloMosaic.ValueIdx Cert.KernelIdeal Cert.SageLayer Cert.Aggregate

/-- The first hidden layer. -/
def hidden1 (x : Reals S100000x128) (e : Words S2x1600000) (wl wr : Reals S128x128) (b : Reals S128) : Reals S100000x128 :=
  relu (lin (mean128 (src e) (dst e) (invDeg e) x) x wl wr b)

/-- The second hidden layer, from the first. -/
def hidden2 (h1 : Reals S100000x128) (e : Words S2x1600000) (wl wr : Reals S128x76) (b : Reals S76) : Reals S100000x76 :=
  relu (lin (mean128 (src e) (dst e) (invDeg e) h1) h1 wl wr b)

/-- The output layer, from the second hidden layer: no nonlinearity. -/
def output (h2 : Reals S100000x76) (e : Words S2x1600000) (wl wr : Reals S76x64) (b : Reals S64) : Reals S100000x64 :=
  lin (mean76 (src e) (dst e) (invDeg e) h2) h2 wl wr b

/-- The whole network. -/
def net (x : Reals S100000x128) (e : Words S2x1600000) (wl1 wr1 : Reals S128x128) (b1 : Reals S128)
    (wl2 wr2 : Reals S128x76) (b2 : Reals S76) (wl3 wr3 : Reals S76x64) (b3 : Reals S64) : Reals S100000x64 :=
  output (hidden2 (hidden1 x e wl1 wr1 b1) e wl2 wr2 b2) e wl3 wr3 b3

/-- A vector reshaped to a one-row matrix, read back as a row, is the vector. -/
theorem rowOf_shapeCast {a : ℕ} (x : (⟨1, ![a]⟩ : Shape).Idx → EReal) (h : (⟨1, ![a]⟩ : Shape).ShapeCasts ⟨2, ![1, a]⟩) :
    rowOf (shapeCast ⟨2, ![1, a]⟩ x h) = x := by
  funext q
  unfold rowOf
  exact (shapeCast_a_1a_apply x h 0 (q 0)).trans (congrArg x (eq_ix1 q).symm)

end Cert.Network

end
-- ==== Proof.KernelValue.lean ====
/-
  The idealized kernel program's result array as one function of its arguments.

  The program's run passes seven boundaries: launch, then alternately a stretch of host operations and a
  row-tiled region, three times. The contents at each boundary are the previous boundary's with that segment
  applied. Walking forward: the first stretch computes the edge rows, the inverted in-degree column, the first
  aggregated matrix and the first bias row from the arguments; the first region leaves the first hidden layer
  (`Layer0.final`); the second stretch aggregates it, the second region leaves the second hidden layer; the third
  stretch aggregates that and the third region leaves the output layer. A buffer a segment does not write keeps
  its contents through it. The aggregation is carried as the closed terms of `Aggregate`; nothing is assumed finite.
-/
import proofs.«162143_j61899068670163_1_alg».proof.Proof.Gen.KernelIdeal.Frame
import proofs.«162143_j61899068670163_1_alg».proof.Proof.Region0
import proofs.«162143_j61899068670163_1_alg».proof.Proof.Region1
import proofs.«162143_j61899068670163_1_alg».proof.Proof.Region2
import proofs.«162143_j61899068670163_1_alg».proof.Proof.Network
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Cert.KernelIdeal Cert.KernelIdeal.Gen Cert.KernelIdeal.Facts₀ Cert.Aggregate Cert.SageLayer Cert.Network

variable (m : (ℓ : Loc nD τ sig) → Buf (Elt Ideal) ℓ) (ρ : Dev nD → PrngReg)

/-! ## After the first host stretch (the first region's entry) -/

theorem at1_main_v1 (c : Dev nD) :
    W1 m ρ c (Proc.devRef .tc main_v1) = src (m ((c.tc : Thread nD τ).loc main_arg1)) := by
  show StableHlo.after hostOps0 (W0 m ρ c) (Proc.devRef .tc main_v1) = _
  after_results_simp <;> rfl

theorem at1_main_v3 (c : Dev nD) :
    W1 m ρ c (Proc.devRef .tc main_v3) = dst (m ((c.tc : Thread nD τ).loc main_arg1)) := by
  show StableHlo.after hostOps0 (W0 m ρ c) (Proc.devRef .tc main_v3) = _
  after_results_simp <;> rfl

theorem at1_main_v12 (c : Dev nD) :
    W1 m ρ c (Proc.devRef .tc main_v12) = invDeg (m ((c.tc : Thread nD τ).loc main_arg1)) := by
  show StableHlo.after hostOps0 (W0 m ρ c) (Proc.devRef .tc main_v12) = _
  after_results_simp <;> rfl

theorem at1_main_arg0 (c : Dev nD) :
    W1 m ρ c (Proc.devRef .tc main_arg0) = m ((c.tc : Thread nD τ).loc main_arg0) := by
  show StableHlo.after hostOps0 (W0 m ρ c) (Proc.devRef .tc main_arg0) = _
  after_results_simp <;> rfl

theorem at1_main_arg2 (c : Dev nD) :
    W1 m ρ c (Proc.devRef .tc main_arg2) = m ((c.tc : Thread nD τ).loc main_arg2) := by
  show StableHlo.after hostOps0 (W0 m ρ c) (Proc.devRef .tc main_arg2) = _
  after_results_simp <;> rfl

theorem at1_main_arg3 (c : Dev nD) :
    W1 m ρ c (Proc.devRef .tc main_arg3) = m ((c.tc : Thread nD τ).loc main_arg3) := by
  show StableHlo.after hostOps0 (W0 m ρ c) (Proc.devRef .tc main_arg3) = _
  after_results_simp <;> rfl

theorem at1_main_arg4 (c : Dev nD) :
    W1 m ρ c (Proc.devRef .tc main_arg4) = m ((c.tc : Thread nD τ).loc main_arg4) := by
  show StableHlo.after hostOps0 (W0 m ρ c) (Proc.devRef .tc main_arg4) = _
  after_results_simp <;> rfl

theorem at1_main_arg5 (c : Dev nD) :
    W1 m ρ c (Proc.devRef .tc main_arg5) = m ((c.tc : Thread nD τ).loc main_arg5) := by
  show StableHlo.after hostOps0 (W0 m ρ c) (Proc.devRef .tc main_arg5) = _
  after_results_simp <;> rfl

theorem at1_main_arg6 (c : Dev nD) :
    W1 m ρ c (Proc.devRef .tc main_arg6) = m ((c.tc : Thread nD τ).loc main_arg6) := by
  show StableHlo.after hostOps0 (W0 m ρ c) (Proc.devRef .tc main_arg6) = _
  after_results_simp <;> rfl

theorem at1_main_arg7 (c : Dev nD) :
    W1 m ρ c (Proc.devRef .tc main_arg7) = m ((c.tc : Thread nD τ).loc main_arg7) := by
  show StableHlo.after hostOps0 (W0 m ρ c) (Proc.devRef .tc main_arg7) = _
  after_results_simp <;> rfl

theorem at1_main_arg8 (c : Dev nD) :
    W1 m ρ c (Proc.devRef .tc main_arg8) = m ((c.tc : Thread nD τ).loc main_arg8) := by
  show StableHlo.after hostOps0 (W0 m ρ c) (Proc.devRef .tc main_arg8) = _
  after_results_simp <;> rfl

theorem at1_main_arg9 (c : Dev nD) :
    W1 m ρ c (Proc.devRef .tc main_arg9) = m ((c.tc : Thread nD τ).loc main_arg9) := by
  show StableHlo.after hostOps0 (W0 m ρ c) (Proc.devRef .tc main_arg9) = _
  after_results_simp <;> rfl

theorem at1_main_arg10 (c : Dev nD) :
    W1 m ρ c (Proc.devRef .tc main_arg10) = m ((c.tc : Thread nD τ).loc main_arg10) := by
  show StableHlo.after hostOps0 (W0 m ρ c) (Proc.devRef .tc main_arg10) = _
  after_results_simp <;> rfl

/-- The first layer's aggregated matrix. -/
theorem at1_main_v24 (c : Dev nD) :
    W1 m ρ c (Proc.devRef .tc main_v24) = mean128 (src (m ((c.tc : Thread nD τ).loc main_arg1))) (dst (m ((c.tc : Thread nD τ).loc main_arg1))) (invDeg (m ((c.tc : Thread nD τ).loc main_arg1))) (m ((c.tc : Thread nD τ).loc main_arg0)) := by
  show StableHlo.after hostOps0 (W0 m ρ c) (Proc.devRef .tc main_v24) = _
  after_results_simp <;> rfl

/-- The first bias as a one-row matrix. -/
theorem at1_main_v25 (c : Dev nD) :
    W1 m ρ c (Proc.devRef .tc main_v25) = shapeCast S1x128 (m ((c.tc : Thread nD τ).loc main_arg4)) Facts₀.shapeCasts_S128_S1x128 := by
  show StableHlo.after hostOps0 (W0 m ρ c) (Proc.devRef .tc main_v25) = _
  after_results_simp <;> rfl

/-! ## After the first region -/

theorem at2_main_v1 (c : Dev nD) :
    W2 m ρ c (Proc.devRef .tc main_v1) = src (m ((c.tc : Thread nD τ).loc main_arg1)) :=
  (W2_of_ne m ρ c main_v1 (by decide)).trans (at1_main_v1 m ρ c)

theorem at2_main_v3 (c : Dev nD) :
    W2 m ρ c (Proc.devRef .tc main_v3) = dst (m ((c.tc : Thread nD τ).loc main_arg1)) :=
  (W2_of_ne m ρ c main_v3 (by decide)).trans (at1_main_v3 m ρ c)

theorem at2_main_v12 (c : Dev nD) :
    W2 m ρ c (Proc.devRef .tc main_v12) = invDeg (m ((c.tc : Thread nD τ).loc main_arg1)) :=
  (W2_of_ne m ρ c main_v12 (by decide)).trans (at1_main_v12 m ρ c)

theorem at2_main_arg5 (c : Dev nD) :
    W2 m ρ c (Proc.devRef .tc main_arg5) = m ((c.tc : Thread nD τ).loc main_arg5) :=
  (W2_of_ne m ρ c main_arg5 (by decide)).trans (at1_main_arg5 m ρ c)

theorem at2_main_arg6 (c : Dev nD) :
    W2 m ρ c (Proc.devRef .tc main_arg6) = m ((c.tc : Thread nD τ).loc main_arg6) :=
  (W2_of_ne m ρ c main_arg6 (by decide)).trans (at1_main_arg6 m ρ c)

theorem at2_main_arg7 (c : Dev nD) :
    W2 m ρ c (Proc.devRef .tc main_arg7) = m ((c.tc : Thread nD τ).loc main_arg7) :=
  (W2_of_ne m ρ c main_arg7 (by decide)).trans (at1_main_arg7 m ρ c)

theorem at2_main_arg8 (c : Dev nD) :
    W2 m ρ c (Proc.devRef .tc main_arg8) = m ((c.tc : Thread nD τ).loc main_arg8) :=
  (W2_of_ne m ρ c main_arg8 (by decide)).trans (at1_main_arg8 m ρ c)

theorem at2_main_arg9 (c : Dev nD) :
    W2 m ρ c (Proc.devRef .tc main_arg9) = m ((c.tc : Thread nD τ).loc main_arg9) :=
  (W2_of_ne m ρ c main_arg9 (by decide)).trans (at1_main_arg9 m ρ c)

theorem at2_main_arg10 (c : Dev nD) :
    W2 m ρ c (Proc.devRef .tc main_arg10) = m ((c.tc : Thread nD τ).loc main_arg10) :=
  (W2_of_ne m ρ c main_arg10 (by decide)).trans (at1_main_arg10 m ρ c)

/-- The first region leaves the first hidden layer in its result array. -/
theorem at2_main_v26 (c : Dev nD) :
    W2 m ρ c (Proc.devRef .tc main_v26) = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((Layer0.final (V1 m ρ) c).trans ?_)
  show relu (lin (W1 m ρ c (Proc.devRef .tc main_v24)) (W1 m ρ c (Proc.devRef .tc main_arg0)) (W1 m ρ c (Proc.devRef .tc main_arg2)) (W1 m ρ c (Proc.devRef .tc main_arg3)) (rowOf (W1 m ρ c (Proc.devRef .tc main_v25)))) = _
  rw [at1_main_v24, at1_main_arg0, at1_main_arg2, at1_main_arg3, at1_main_v25, rowOf_shapeCast]
  rfl

/-! ## After the second host stretch (the second region's entry) -/

theorem at3_main_v1 (c : Dev nD) :
    W3 m ρ c (Proc.devRef .tc main_v1) = src (m ((c.tc : Thread nD τ).loc main_arg1)) := by
  refine Eq.trans ?_ (at2_main_v1 m ρ c)
  show StableHlo.after hostOps1 (W2 m ρ c) (Proc.devRef .tc main_v1) = _
  after_results_simp <;> rfl

theorem at3_main_v3 (c : Dev nD) :
    W3 m ρ c (Proc.devRef .tc main_v3) = dst (m ((c.tc : Thread nD τ).loc main_arg1)) := by
  refine Eq.trans ?_ (at2_main_v3 m ρ c)
  show StableHlo.after hostOps1 (W2 m ρ c) (Proc.devRef .tc main_v3) = _
  after_results_simp <;> rfl

theorem at3_main_v12 (c : Dev nD) :
    W3 m ρ c (Proc.devRef .tc main_v12) = invDeg (m ((c.tc : Thread nD τ).loc main_arg1)) := by
  refine Eq.trans ?_ (at2_main_v12 m ρ c)
  show StableHlo.after hostOps1 (W2 m ρ c) (Proc.devRef .tc main_v12) = _
  after_results_simp <;> rfl

theorem at3_main_v26 (c : Dev nD) :
    W3 m ρ c (Proc.devRef .tc main_v26) = hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine Eq.trans ?_ (at2_main_v26 m ρ c)
  show StableHlo.after hostOps1 (W2 m ρ c) (Proc.devRef .tc main_v26) = _
  after_results_simp <;> rfl

theorem at3_main_arg5 (c : Dev nD) :
    W3 m ρ c (Proc.devRef .tc main_arg5) = m ((c.tc : Thread nD τ).loc main_arg5) := by
  refine Eq.trans ?_ (at2_main_arg5 m ρ c)
  show StableHlo.after hostOps1 (W2 m ρ c) (Proc.devRef .tc main_arg5) = _
  after_results_simp <;> rfl

theorem at3_main_arg6 (c : Dev nD) :
    W3 m ρ c (Proc.devRef .tc main_arg6) = m ((c.tc : Thread nD τ).loc main_arg6) := by
  refine Eq.trans ?_ (at2_main_arg6 m ρ c)
  show StableHlo.after hostOps1 (W2 m ρ c) (Proc.devRef .tc main_arg6) = _
  after_results_simp <;> rfl

theorem at3_main_arg8 (c : Dev nD) :
    W3 m ρ c (Proc.devRef .tc main_arg8) = m ((c.tc : Thread nD τ).loc main_arg8) := by
  refine Eq.trans ?_ (at2_main_arg8 m ρ c)
  show StableHlo.after hostOps1 (W2 m ρ c) (Proc.devRef .tc main_arg8) = _
  after_results_simp <;> rfl

theorem at3_main_arg9 (c : Dev nD) :
    W3 m ρ c (Proc.devRef .tc main_arg9) = m ((c.tc : Thread nD τ).loc main_arg9) := by
  refine Eq.trans ?_ (at2_main_arg9 m ρ c)
  show StableHlo.after hostOps1 (W2 m ρ c) (Proc.devRef .tc main_arg9) = _
  after_results_simp <;> rfl

theorem at3_main_arg10 (c : Dev nD) :
    W3 m ρ c (Proc.devRef .tc main_arg10) = m ((c.tc : Thread nD τ).loc main_arg10) := by
  refine Eq.trans ?_ (at2_main_arg10 m ρ c)
  show StableHlo.after hostOps1 (W2 m ρ c) (Proc.devRef .tc main_arg10) = _
  after_results_simp <;> rfl

/-- The second layer's aggregated matrix. -/
theorem at3_main_v38 (c : Dev nD) :
    W3 m ρ c (Proc.devRef .tc main_v38) = mean128 (src (m ((c.tc : Thread nD τ).loc main_arg1))) (dst (m ((c.tc : Thread nD τ).loc main_arg1))) (invDeg (m ((c.tc : Thread nD τ).loc main_arg1))) (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  have h : W3 m ρ c (Proc.devRef .tc main_v38) = mean128 (W2 m ρ c (Proc.devRef .tc main_v1)) (W2 m ρ c (Proc.devRef .tc main_v3)) (W2 m ρ c (Proc.devRef .tc main_v12)) (W2 m ρ c (Proc.devRef .tc main_v26)) := by
    show StableHlo.after hostOps1 (W2 m ρ c) (Proc.devRef .tc main_v38) = _
    after_results_simp <;> rfl
  rw [h, at2_main_v1, at2_main_v3, at2_main_v12, at2_main_v26]

/-- The second bias as a one-row matrix. -/
theorem at3_main_v39 (c : Dev nD) :
    W3 m ρ c (Proc.devRef .tc main_v39) = shapeCast S1x76 (m ((c.tc : Thread nD τ).loc main_arg7)) Facts₀.shapeCasts_S76_S1x76 := by
  have h : W3 m ρ c (Proc.devRef .tc main_v39) = shapeCast S1x76 (W2 m ρ c (Proc.devRef .tc main_arg7)) Facts₀.shapeCasts_S76_S1x76 := by
    show StableHlo.after hostOps1 (W2 m ρ c) (Proc.devRef .tc main_v39) = _
    after_results_simp <;> rfl
  rw [h, at2_main_arg7]

/-! ## After the second region -/

theorem at4_main_v1 (c : Dev nD) :
    W4 m ρ c (Proc.devRef .tc main_v1) = src (m ((c.tc : Thread nD τ).loc main_arg1)) :=
  (W4_of_ne m ρ c main_v1 (by decide)).trans (at3_main_v1 m ρ c)

theorem at4_main_v3 (c : Dev nD) :
    W4 m ρ c (Proc.devRef .tc main_v3) = dst (m ((c.tc : Thread nD τ).loc main_arg1)) :=
  (W4_of_ne m ρ c main_v3 (by decide)).trans (at3_main_v3 m ρ c)

theorem at4_main_v12 (c : Dev nD) :
    W4 m ρ c (Proc.devRef .tc main_v12) = invDeg (m ((c.tc : Thread nD τ).loc main_arg1)) :=
  (W4_of_ne m ρ c main_v12 (by decide)).trans (at3_main_v12 m ρ c)

theorem at4_main_arg8 (c : Dev nD) :
    W4 m ρ c (Proc.devRef .tc main_arg8) = m ((c.tc : Thread nD τ).loc main_arg8) :=
  (W4_of_ne m ρ c main_arg8 (by decide)).trans (at3_main_arg8 m ρ c)

theorem at4_main_arg9 (c : Dev nD) :
    W4 m ρ c (Proc.devRef .tc main_arg9) = m ((c.tc : Thread nD τ).loc main_arg9) :=
  (W4_of_ne m ρ c main_arg9 (by decide)).trans (at3_main_arg9 m ρ c)

theorem at4_main_arg10 (c : Dev nD) :
    W4 m ρ c (Proc.devRef .tc main_arg10) = m ((c.tc : Thread nD τ).loc main_arg10) :=
  (W4_of_ne m ρ c main_arg10 (by decide)).trans (at3_main_arg10 m ρ c)

/-- The second region leaves the second hidden layer in its result array. -/
theorem at4_main_v40 (c : Dev nD) :
    W4 m ρ c (Proc.devRef .tc main_v40) = hidden2 (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7)) := by
  refine (W4_arr m ρ c 5).trans ((Layer1.final (V3 m ρ) c).trans ?_)
  show relu (lin (W3 m ρ c (Proc.devRef .tc main_v38)) (W3 m ρ c (Proc.devRef .tc main_v26)) (W3 m ρ c (Proc.devRef .tc main_arg5)) (W3 m ρ c (Proc.devRef .tc main_arg6)) (rowOf (W3 m ρ c (Proc.devRef .tc main_v39)))) = _
  rw [at3_main_v38, at3_main_v26, at3_main_arg5, at3_main_arg6, at3_main_v39, rowOf_shapeCast]
  rfl

/-! ## After the third host stretch (the third region's entry) -/

theorem at5_main_v40 (c : Dev nD) :
    W5 m ρ c (Proc.devRef .tc main_v40) = hidden2 (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7)) := by
  refine Eq.trans ?_ (at4_main_v40 m ρ c)
  show StableHlo.after hostOps2 (W4 m ρ c) (Proc.devRef .tc main_v40) = _
  after_results_simp <;> rfl

theorem at5_main_arg8 (c : Dev nD) :
    W5 m ρ c (Proc.devRef .tc main_arg8) = m ((c.tc : Thread nD τ).loc main_arg8) := by
  refine Eq.trans ?_ (at4_main_arg8 m ρ c)
  show StableHlo.after hostOps2 (W4 m ρ c) (Proc.devRef .tc main_arg8) = _
  after_results_simp <;> rfl

theorem at5_main_arg9 (c : Dev nD) :
    W5 m ρ c (Proc.devRef .tc main_arg9) = m ((c.tc : Thread nD τ).loc main_arg9) := by
  refine Eq.trans ?_ (at4_main_arg9 m ρ c)
  show StableHlo.after hostOps2 (W4 m ρ c) (Proc.devRef .tc main_arg9) = _
  after_results_simp <;> rfl

/-- The third layer's aggregated matrix. -/
theorem at5_main_v52 (c : Dev nD) :
    W5 m ρ c (Proc.devRef .tc main_v52) = mean76 (src (m ((c.tc : Thread nD τ).loc main_arg1))) (dst (m ((c.tc : Thread nD τ).loc main_arg1))) (invDeg (m ((c.tc : Thread nD τ).loc main_arg1))) (hidden2 (hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg1)) (m ((c.tc : Thread nD τ).loc main_arg5)) (m ((c.tc : Thread nD τ).loc main_arg6)) (m ((c.tc : Thread nD τ).loc main_arg7))) := by
  have h : W5 m ρ c (Proc.devRef .tc main_v52) = mean76 (W4 m ρ c (Proc.devRef .tc main_v1)) (W4 m ρ c (Proc.devRef .tc main_v3)) (W4 m ρ c (Proc.devRef .tc main_v12)) (W4 m ρ c (Proc.devRef .tc main_v40)) := by
    show StableHlo.after hostOps2 (W4 m ρ c) (Proc.devRef .tc main_v52) = _
    after_results_simp <;> rfl
  rw [h, at4_main_v1, at4_main_v3, at4_main_v12, at4_main_v40]

/-- The third bias as a one-row matrix. -/
theorem at5_main_v53 (c : Dev nD) :
    W5 m ρ c (Proc.devRef .tc main_v53) = shapeCast S1x64 (m ((c.tc : Thread nD τ).loc main_arg10)) Facts₀.shapeCasts_S64_S1x64 := by
  have h : W5 m ρ c (Proc.devRef .tc main_v53) = shapeCast S1x64 (W4 m ρ c (Proc.devRef .tc main_arg10)) Facts₀.shapeCasts_S64_S1x64 := by
    show StableHlo.after hostOps2 (W4 m ρ c) (Proc.devRef .tc main_v53) = _
    after_results_simp <;> rfl
  rw [h, at4_main_arg10]

/-! ## After the third region: the result -/

/-- The result array after the run is the network of the argument arrays. -/
theorem result_eq (c : Dev nD) :
    W6 m ρ c (Proc.devRef .tc main_v54) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W6_arr m ρ c 5).trans ((Layer2.final (V5 m ρ) c).trans ?_)
  show lin (W5 m ρ c (Proc.devRef .tc main_v52)) (W5 m ρ c (Proc.devRef .tc main_v40)) (W5 m ρ c (Proc.devRef .tc main_arg8)) (W5 m ρ c (Proc.devRef .tc main_arg9)) (rowOf (W5 m ρ c (Proc.devRef .tc main_v53))) = _
  rw [at5_main_v52, at5_main_v40, at5_main_arg8, at5_main_arg9, at5_main_v53, rowOf_shapeCast]
  rfl

end Cert.KernelIdeal.Boundary

end
-- ==== Proof.RefValue.lean ====
/-
  The idealized reference program's result as the same function of its arguments.

  The reference computes each layer over the whole arrays at once: two matrix products added, the bias row
  broadcast over the rows and added, the maximum with zero (in the first two layers). Read at an entry each product
  is the plain sum over the contracted index and each broadcast reads the bias at the entry's column, so a layer is
  `SageLayer.lin` (under `relu`) entry by entry; its aggregated operand is, word for word, `Aggregate`'s mean of
  the previous layer.
-/
import proofs.«162143_j61899068670163_1_alg».proof.Proof.Gen.ReferenceIdeal.Read
import proofs.«162143_j61899068670163_1_alg».proof.Proof.Network

set_option maxRecDepth 16384

noncomputable section

namespace Cert.ReferenceIdeal.RefValue

open Idealize.ShloMosaic Idealize.ShloMosaic.ValueIdx Idealize.ShloMosaic.TcCoe Idealize.SL.Sem
open Cert.ReferenceIdeal Cert.ReferenceIdeal.Read Cert.Aggregate Cert.SageLayer Cert.Network

/-! ## The aggregated matrices are `Aggregate`'s means -/

theorem src_eq (x1 : (⟨S2x1600000, .i32⟩ : BufTy).Contents (Elt Ideal)) : val_main_v1 (F := Ideal) x1 = src x1 := rfl
theorem dst_eq (x1 : (⟨S2x1600000, .i32⟩ : BufTy).Contents (Elt Ideal)) : val_main_v3 (F := Ideal) x1 = dst x1 := rfl
theorem invDeg_eq (x1 : (⟨S2x1600000, .i32⟩ : BufTy).Contents (Elt Ideal)) : val_main_v12 (F := Ideal) x1 = invDeg x1 := rfl

theorem agg1_eq (x0 : (⟨S100000x128, .f32⟩ : BufTy).Contents (Elt Ideal)) (x1 : (⟨S2x1600000, .i32⟩ : BufTy).Contents (Elt Ideal)) :
    val_main_v24 (F := Ideal) x0 x1 = mean128 (src x1) (dst x1) (invDeg x1) x0 := rfl

theorem agg2_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v43 (F := Ideal) x0 x1 x2 x3 x4 = mean128 (src x1) (dst x1) (invDeg x1) (val_main_v31 (F := Ideal) x0 x1 x2 x3 x4) := rfl

theorem agg3_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x76, .f32⟩ : BufTy).Contents (Elt Ideal)) (x7 : (⟨S76, .f32⟩ : BufTy).Contents (Elt Ideal)) :
    val_main_v62 (F := Ideal) x0 x1 x2 x3 x4 x5 x6 x7 = mean76 (src x1) (dst x1) (invDeg x1) (val_main_v50 (F := Ideal) x0 x1 x2 x3 x4 x5 x6 x7) := rfl

/-! ## The index functions of the generated read lemmas, by coordinates -/

theorem lidx_v25 (i : _) (k : Fin 128) : lidx_main_v25 i k = ix2 (i 0) k := funext fun a => by match a with | ⟨0, _⟩ => rfl | ⟨1, _⟩ => rfl
theorem ridx_v25 (i : _) (k : Fin 128) : ridx_main_v25 i k = ix2 k (i 1) := funext fun a => by match a with | ⟨0, _⟩ => rfl | ⟨1, _⟩ => rfl
theorem lidx_v26 (i : _) (k : Fin 128) : lidx_main_v26 i k = ix2 (i 0) k := funext fun a => by match a with | ⟨0, _⟩ => rfl | ⟨1, _⟩ => rfl
theorem ridx_v26 (i : _) (k : Fin 128) : ridx_main_v26 i k = ix2 k (i 1) := funext fun a => by match a with | ⟨0, _⟩ => rfl | ⟨1, _⟩ => rfl
theorem lidx_v44 (i : _) (k : Fin 128) : lidx_main_v44 i k = ix2 (i 0) k := funext fun a => by match a with | ⟨0, _⟩ => rfl | ⟨1, _⟩ => rfl
theorem ridx_v44 (i : _) (k : Fin 128) : ridx_main_v44 i k = ix2 k (i 1) := funext fun a => by match a with | ⟨0, _⟩ => rfl | ⟨1, _⟩ => rfl
theorem lidx_v45 (i : _) (k : Fin 128) : lidx_main_v45 i k = ix2 (i 0) k := funext fun a => by match a with | ⟨0, _⟩ => rfl | ⟨1, _⟩ => rfl
theorem ridx_v45 (i : _) (k : Fin 128) : ridx_main_v45 i k = ix2 k (i 1) := funext fun a => by match a with | ⟨0, _⟩ => rfl | ⟨1, _⟩ => rfl
theorem lidx_v63 (i : _) (k : Fin 76) : lidx_main_v63 i k = ix2 (i 0) k := funext fun a => by match a with | ⟨0, _⟩ => rfl | ⟨1, _⟩ => rfl
theorem ridx_v63 (i : _) (k : Fin 76) : ridx_main_v63 i k = ix2 k (i 1) := funext fun a => by match a with | ⟨0, _⟩ => rfl | ⟨1, _⟩ => rfl
theorem lidx_v64 (i : _) (k : Fin 76) : lidx_main_v64 i k = ix2 (i 0) k := funext fun a => by match a with | ⟨0, _⟩ => rfl | ⟨1, _⟩ => rfl
theorem ridx_v64 (i : _) (k : Fin 76) : ridx_main_v64 i k = ix2 k (i 1) := funext fun a => by match a with | ⟨0, _⟩ => rfl | ⟨1, _⟩ => rfl
theorem bidx_v29 (i : S100000x128.Idx) : idx_main_v28 (idx_main_v29 i) = ix1 (i 1) := funext fun a => by match a with | ⟨0, _⟩ => rfl
theorem bidx_v48 (i : S100000x76.Idx) : idx_main_v47 (idx_main_v48 i) = ix1 (i 1) := funext fun a => by match a with | ⟨0, _⟩ => rfl
theorem bidx_v67 (i : S100000x64.Idx) : idx_main_v66 (idx_main_v67 i) = ix1 (i 1) := funext fun a => by match a with | ⟨0, _⟩ => rfl

/-! ## The layers -/

/-- The first hidden layer. -/
theorem hidden1_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v31 (F := Ideal) x0 x1 x2 x3 x4 = hidden1 x0 x1 x2 x3 x4 := by
  funext i
  rw [val_main_v31_apply, val_main_v30_apply, val_main_v27_apply, val_main_v25_apply, val_main_v26_apply,
    val_main_v29_apply, val_main_v28_apply, val_main_call0_v0_apply, val_main_call0_cst_apply, agg1_eq]
  simp only [lidx_v25, ridx_v25, lidx_v26, ridx_v26, bidx_v29, Ideal.maximumf_def, Ideal.addf_def, Ideal.ofBits_def]
  rfl

/-- The second hidden layer, from the first. -/
theorem hidden2_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x76, .f32⟩ : BufTy).Contents (Elt Ideal)) (x7 : (⟨S76, .f32⟩ : BufTy).Contents (Elt Ideal)) :
    val_main_v50 (F := Ideal) x0 x1 x2 x3 x4 x5 x6 x7 = hidden2 (hidden1 x0 x1 x2 x3 x4) x1 x5 x6 x7 := by
  funext i
  rw [val_main_v50_apply, val_main_v49_apply, val_main_v46_apply, val_main_v44_apply, val_main_v45_apply,
    val_main_v48_apply, val_main_v47_apply, val_main_call1_v0_apply, val_main_call1_cst_apply, agg2_eq, hidden1_eq]
  simp only [lidx_v44, ridx_v44, lidx_v45, ridx_v45, bidx_v48, Ideal.maximumf_def, Ideal.addf_def, Ideal.ofBits_def]
  rfl

/-- The output layer, from the second hidden layer. -/
theorem output_eq (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) (x5 x6 : (⟨S128x76, .f32⟩ : BufTy).Contents (Elt Ideal)) (x7 : (⟨S76, .f32⟩ : BufTy).Contents (Elt Ideal)) (x8 x9 : (⟨S76x64, .f32⟩ : BufTy).Contents (Elt Ideal)) (x10 : (⟨S64, .f32⟩ : BufTy).Contents (Elt Ideal)) :
    val_main_v68 (F := Ideal) x0 x1 x2 x3 x4 x5 x6 x7 x8 x9 x10 = net x0 x1 x2 x3 x4 x5 x6 x7 x8 x9 x10 := by
  funext i
  rw [val_main_v68_apply, val_main_v65_apply, val_main_v63_apply, val_main_v64_apply,
    val_main_v67_apply, val_main_v66_apply, agg3_eq, hidden2_eq]
  simp only [lidx_v63, ridx_v63, lidx_v64, ridx_v64, bidx_v67, Ideal.addf_def]
  rfl

/-- The reference run's result term is the network of the argument arrays. -/
theorem result_eq (m : (ℓ : Loc nD τ sig) → Buf (Elt Ideal) ℓ) (c : Dev nD) :
    Cert.ReferenceIdeal.Value.res_main_v68 m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v68_eq (F := Ideal) m c).trans (output_eq _ _ _ _ _ _ _ _ _ _ _)

end Cert.ReferenceIdeal.RefValue

end
-- ==== Proof.lean ====
/-
  The certificate of a three-layer GraphSAGE encoder with mean aggregation: a Pallas program whose three dense
  layers run as row-tiled TensorCore kernels (twenty blocks of 5000 rows each, the matrix products taken on
  operands rounded to a narrower float format) among host gathers and accumulating scatters, against the plain
  array program.

  On the extended reals the rounding is the identity and a product into a zero accumulator is the plain sum, so each
  kernel block is the layer `(a·Wl + h·Wr) + b` (under `max · 0` in the first two layers) of its rows
  (`Body`); a row of a layer depends on the same row of `a` and `h` only, so the twenty blocks are the layer of the
  whole arrays (`Region0` … `Region2`). The neighbourhood mean feeding each layer is printed with the same words in
  both programs and stays a closed term (`Aggregate`). Walking the kernel program's segment boundaries gives its
  result as `Network.net` of the arguments (`KernelValue`), and reading the reference's operations at an entry gives
  the same function (`RefValue`). No sum is rearranged and no factor is moved across a sum, so the finiteness of the
  inputs is never used. The ideal pass rewrote nothing in the kernel program, so `preserves` asks nothing.
-/
import proofs.«162143_j61899068670163_1_alg».proof.Defs
import proofs.«162143_j61899068670163_1_alg».proof.Proof.Gen.Kernel
import proofs.«162143_j61899068670163_1_alg».proof.Proof.Gen.Kernel.Frame
import proofs.«162143_j61899068670163_1_alg».proof.Proof.Gen.KernelIdeal
import proofs.«162143_j61899068670163_1_alg».proof.Proof.Gen.KernelIdeal.Frame
import proofs.«162143_j61899068670163_1_alg».proof.Proof.Gen.ReferenceIdeal
import proofs.«162143_j61899068670163_1_alg».proof.Proof.Gen.ReferenceIdeal.Run
import proofs.«162143_j61899068670163_1_alg».proof.Proof.Gen.ReferenceIdeal.Read
import proofs.«162143_j61899068670163_1_alg».proof.Proof.Gen.Pre_finite_inputs
import proofs.«162143_j61899068670163_1_alg».proof.Proof.KernelRun
import proofs.«162143_j61899068670163_1_alg».proof.Proof.KernelValue
import proofs.«162143_j61899068670163_1_alg».proof.Proof.RefValue

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the network of those arguments in
    their result arrays. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Boundary.result_eq m ρ c), (h c).2⟩)
    (Cert.KernelIdeal.Named.run_named (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
